-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x28x28 : Shape := ⟨4, ![4, 64, 28, 28]⟩
abbrev S64x64x3x3 : Shape := ⟨4, ![64, 64, 3, 3]⟩
abbrev S_ : Shape := ⟨0, ![]⟩

class Facts : Prop where
  bcast_S_S4x64x28x28 : S_.BroadcastsInDim S4x64x28x28 (![] : Fin 0 → Fin S4x64x28x28.rank)
  reducesTo_S4x64x28x28_S_d0_1_2_3 : S4x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S4x64x28x28 .f32) (main_arg1 : FVec F S64x64x3x3 .f32) : IVec S_ 1 :=
  let main_v0 : FVec F S4x64x28x28 .f32 := Host.absf main_arg0
  let main_cst : FVec F S_ .f32 := constant S_ .f32 0x7F800000#32
  let main_v1 : FVec F S4x64x28x28 .f32 := broadcastInDim S4x64x28x28 ![] bcast_S_S4x64x28x28 main_cst
  let main_v2 : IVec S4x64x28x28 1 := cmpf .olt main_v0 main_v1
  let main_c : IVec S_ 1 := constantI S_ 1 1#1
  let main_v3 : IVec S_ 1 := (fun x v => Host.reduce IntOp.andi x v reducesTo_S4x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S4x64x28x28 : Shape := ⟨4, ![4, 64, 28, 28]⟩
abbrev S64x64x3x3 : Shape := ⟨4, ![64, 64, 3, 3]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x28x28 : Shape := ⟨4, ![4, 576, 28, 28]⟩
abbrev S576x4x28x28 : Shape := ⟨4, ![576, 4, 28, 28]⟩
abbrev S576x3136 : Shape := ⟨2, ![576, 3136]⟩
abbrev S64x576 : Shape := ⟨2, ![64, 576]⟩
abbrev S576x3200 : Shape := ⟨2, ![576, 3200]⟩
abbrev S64x3200 : Shape := ⟨2, ![64, 3200]⟩
abbrev S576x640 : Shape := ⟨2, ![576, 640]⟩
abbrev S64x640 : Shape := ⟨2, ![64, 640]⟩
abbrev S64x64 : Shape := ⟨2, ![64, 64]⟩
abbrev S64x64x1 : Shape := ⟨3, ![64, 64, 1]⟩
abbrev S1x64x640 : Shape := ⟨3, ![1, 64, 640]⟩
abbrev S64x64x640 : Shape := ⟨3, ![64, 64, 640]⟩
abbrev S64x3136 : Shape := ⟨2, ![64, 3136]⟩
abbrev S64x4x28x28 : Shape := ⟨4, ![64, 4, 28, 28]⟩

abbrev nBuf : Space → Nat
  | .hbm => 35
  | .vmem => 5
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S4x64x30x30, .f32⟩
  | .hbm, ⟨5, _⟩ => ⟨S4x64x28x28, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x1x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x9x28x28, .f32⟩
  | .hbm, ⟨24, _⟩ => ⟨S4x576x28x28, .f32⟩
  | .hbm, ⟨25, _⟩ => ⟨S576x4x28x28, .f32⟩
  | .hbm, ⟨26, _⟩ => ⟨S576x3136, .f32⟩
  | .hbm, ⟨27, _⟩ => ⟨S64x576, .f32⟩
  | .hbm, ⟨28, _⟩ => ⟨S_, .i32⟩
  | .hbm, ⟨29, _⟩ => ⟨S_, .f32⟩
  | .hbm, ⟨30, _⟩ => ⟨S576x3200, .f32⟩
  | .hbm, ⟨31, _⟩ => ⟨S64x3200, .f32⟩
  | .hbm, ⟨32, _⟩ => ⟨S64x3136, .f32⟩
  | .hbm, ⟨33, _⟩ => ⟨S64x4x28x28, .f32⟩
  | .hbm, ⟨34, _⟩ => ⟨S4x64x28x28, .f32⟩
  | .local _ .vmem, ⟨0, _⟩ => ⟨S64x576, .f32⟩
  | .local _ .vmem, ⟨1, _⟩ => ⟨S576x640, .f32⟩
  | .local _ .vmem, ⟨2, _⟩ => ⟨S576x640, .f32⟩
  | .local _ .vmem, ⟨3, _⟩ => ⟨S64x640, .f32⟩
  | .local _ .vmem, ⟨4, _⟩ => ⟨S64x640, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_call1_v0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S576x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x28x28 : S4x64x9x28x28.ShapeCasts S4x576x28x28
  transposes_S4x576x28x28_S576x4x28x28_1_0_2_3 : S4x576x28x28.Transposes [1, 0, 2, 3] S576x4x28x28
  shapeCasts_S576x4x28x28_S576x3136 : S576x4x28x28.ShapeCasts S576x3136
  shapeCasts_S64x64x3x3_S64x576 : S64x64x3x3.ShapeCasts S64x576
  pads_S576x3136_S576x3200_000_0640 : S576x3136.Pads (![0, 0] : Fin 2 → Nat) ![0, 64] ![0, 0] S576x3200
  inb_S64x576_S64x576_0_0 : ∀ a, (![0, 0] : Fin 2 → Nat) a + S64x576.size a ≤ S64x576.size a
  h_S64x576 : 0 < S64x576.numel
  shapeCasts_S64x576_S64x576 : S64x576.ShapeCasts S64x576
  inb_S576x640_S576x640_0_0 : ∀ a, (![0, 0] : Fin 2 → Nat) a + S576x640.size a ≤ S576x640.size a
  h_S576x640 : 0 < S576x640.numel
  shapeCasts_S576x640_S576x640 : S576x640.ShapeCasts S576x640
  slices_S64x576_o0_0_S64x64 : S64x576.Slices ![0, 0] S64x64
  slices_S576x640_o0_0_S64x640 : S576x640.Slices ![0, 0] S64x640
  shapeCasts_S64x64_S64x64x1 : S64x64.ShapeCasts S64x64x1
  shapeCasts_S64x640_S1x64x640 : S64x640.ShapeCasts S1x64x640
  broadcasts_S64x64x1_S64x64x640 : S64x64x1.Broadcasts S64x64x640
  broadcasts_S1x64x640_S64x64x640 : S1x64x640.Broadcasts S64x64x640
  reduces_S64x64x640_S64x640 : S64x64x640.Reduces [1] S64x640
  slices_S64x576_o0_64_S64x64 : S64x576.Slices ![0, 64] S64x64
  slices_S576x640_o64_0_S64x640 : S576x640.Slices ![64, 0] S64x640
  slices_S64x576_o0_128_S64x64 : S64x576.Slices ![0, 128] S64x64
  slices_S576x640_o128_0_S64x640 : S576x640.Slices ![128, 0] S64x640
  slices_S64x576_o0_192_S64x64 : S64x576.Slices ![0, 192] S64x64
  slices_S576x640_o192_0_S64x640 : S576x640.Slices ![192, 0] S64x640
  slices_S64x576_o0_256_S64x64 : S64x576.Slices ![0, 256] S64x64
  slices_S576x640_o256_0_S64x640 : S576x640.Slices ![256, 0] S64x640
  slices_S64x576_o0_320_S64x64 : S64x576.Slices ![0, 320] S64x64
  slices_S576x640_o320_0_S64x640 : S576x640.Slices ![320, 0] S64x640
  slices_S64x576_o0_384_S64x64 : S64x576.Slices ![0, 384] S64x64
  slices_S576x640_o384_0_S64x640 : S576x640.Slices ![384, 0] S64x640
  slices_S64x576_o0_448_S64x64 : S64x576.Slices ![0, 448] S64x64
  slices_S576x640_o448_0_S64x640 : S576x640.Slices ![448, 0] S64x640
  slices_S64x576_o0_512_S64x64 : S64x576.Slices ![0, 512] S64x64
  slices_S576x640_o512_0_S64x640 : S576x640.Slices ![512, 0] S64x640
  inb_S64x640_S64x640_0_0 : ∀ a, (![0, 0] : Fin 2 → Nat) a + S64x640.size a ≤ S64x640.size a
  h_S64x640 : 0 < S64x640.numel
  slices_S64x3200_S64x3136_0_0 : S64x3200.Slices ![0, 0] S64x3136
  shapeCasts_S64x3136_S64x4x28x28 : S64x3136.ShapeCasts S64x4x28x28
  transposes_S64x4x28x28_S4x64x28x28_1_0_2_3 : S64x4x28x28.Transposes [1, 0, 2, 3] S4x64x28x28
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x576.size a ≤ S64x576.size a
  hwx0_0 : ∀ i : grid0.Coords, EltTy.bits .f32 = 32 ∨ (Rect.block (s := S64x576) S64x576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S576x640.size a ≤ S576x3200.size a
  hwx0_1 : ∀ i : grid0.Coords, EltTy.bits .f32 = 32 ∨ (Rect.block (s := S576x3200) S576x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x640.size a ≤ S64x3200.size a
  hwx0_2 : ∀ i : grid0.Coords, EltTy.bits .f32 = 32 ∨ (Rect.block (s := S64x3200) S64x640.size (cc0_transform_2 i) (hinb0_2 i)).WholeWords (EltTy.packing .f32)

variable [Facts₀]

abbrev win0_0 : Pipeline.Window sig grid0 :=
  Pipeline.Window.ofSpec (Memref.whole main_v23) S64x576.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v24) S576x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x28x28 : Shape := ⟨4, ![4, 64, 28, 28]⟩
abbrev S64x64x3x3 : Shape := ⟨4, ![64, 64, 3, 3]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S576x784x4 : Shape := ⟨3, ![576, 784, 4]⟩
abbrev S576x3136 : Shape := ⟨2, ![576, 3136]⟩
abbrev S64x576 : Shape := ⟨2, ![64, 576]⟩
abbrev S64x576x1 : Shape := ⟨3, ![64, 576, 1]⟩
abbrev S1x576x3136 : Shape := ⟨3, ![1, 576, 3136]⟩
abbrev S64x576x3136 : Shape := ⟨3, ![64, 576, 3136]⟩
abbrev S64x3136 : Shape := ⟨2, ![64, 3136]⟩
abbrev S64x28x28x4 : Shape := ⟨4, ![64, 28, 28, 4]⟩

abbrev nBuf : Space → Nat
  | .hbm => 39
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S4x64x30x30, .f32⟩
  | .hbm, ⟨5, _⟩ => ⟨S4x64x28x28, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x1x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x9x28x28, .f32⟩
  | .hbm, ⟨24, _⟩ => ⟨S4x576x784, .f32⟩
  | .hbm, ⟨25, _⟩ => ⟨S576x784x4, .f32⟩
  | .hbm, ⟨26, _⟩ => ⟨S576x3136, .f32⟩
  | .hbm, ⟨27, _⟩ => ⟨S64x576, .f32⟩
  | .hbm, ⟨28, _⟩ => ⟨S64x576x1, .f32⟩
  | .hbm, ⟨29, _⟩ => ⟨S1x576x3136, .f32⟩
  | .hbm, ⟨30, _⟩ => ⟨S64x576x3136, .f32⟩
  | .hbm, ⟨31, _⟩ => ⟨S64x576x3136, .f32⟩
  | .hbm, ⟨32, _⟩ => ⟨S64x576x3136, .f32⟩
  | .hbm, ⟨33, _⟩ => ⟨S64x576x3136, .f32⟩
  | .hbm, ⟨34, _⟩ => ⟨S_, .f32⟩
  | .hbm, ⟨35, _⟩ => ⟨S64x3136, .f32⟩
  | .hbm, ⟨36, _⟩ => ⟨S64x3136, .f32⟩
  | .hbm, ⟨37, _⟩ => ⟨S64x28x28x4, .f32⟩
  | .hbm, ⟨38, _⟩ => ⟨S4x64x28x28, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  transposes_S4x576x784_S576x784x4_1_2_0 : S4x576x784.Transposes [1, 2, 0] S576x784x4
  shapeCasts_S576x784x4_S576x3136 : S576x784x4.ShapeCasts S576x3136
  shapeCasts_S64x64x3x3_S64x576 : S64x64x3x3.ShapeCasts S64x576
  bcast_S64x576_S64x576x1_0_1 : S64x576.BroadcastsInDim S64x576x1 (![0, 1] : Fin 2 → Fin S64x576x1.rank)
  bcast_S576x3136_S1x576x3136_1_2 : S576x3136.BroadcastsInDim S1x576x3136 (![1, 2] : Fin 2 → Fin S1x576x3136.rank)
  bcast_S64x576x1_S64x576x3136_0_1_2 : S64x576x1.BroadcastsInDim S64x576x3136 (![0, 1, 2] : Fin 3 → Fin S64x576x3136.rank)
  bcast_S1x576x3136_S64x576x3136_0_1_2 : S1x576x3136.BroadcastsInDim S64x576x3136 (![0, 1, 2] : Fin 3 → Fin S64x576x3136.rank)
  reducesTo_S64x576x3136_S64x3136_d1 : S64x576x3136.ReducesTo [1] S64x3136
  shapeCasts_S64x3136_S64x28x28x4 : S64x3136.ShapeCasts S64x28x28x4
  transposes_S64x28x28x4_S4x64x28x28_3_0_1_2 : S64x28x28x4.Transposes [3, 0, 1, 2] S4x64x28x28

variable [Facts₀]

class Facts : Prop extends Facts₀ where

variable [Facts]
-- ==== Proof.FrameK.lean ====
/-
  The frame of the program: it terminates without fault and its two argument arrays end as launched. Stated for
  any float instance F.

  The program is four stretches of host lines (29 operations, one of them a nine-operand concatenation), one
  pipelined region over a grid of five points, and a closing stretch of three host lines.

  * The region finds every TensorCore buffer as the host lines before it left it (V0, V): the launch contents
    carried through the four stretches in order. None of those lines writes either argument array
    (V_main_arg0, V_main_arg1).
  * The region has three windows. Window 0 (input) stages a 64x576 array and addresses the same block of it at
    every grid point, so it is copied in at the first point only; window 1 (input) stages one 576x640 block of a
    576x3200 array per point and is copied in at every point. Either way the window's staging buffer holds, at
    every point, the point's block of its array as the region found it (before0_0_of, before0_1_of). Window 2
    (output) stages one 64x640 block of a 64x3200 array per point and is written back at every point.
  * The body loads both input buffers whole, loads the output buffer (a value it never uses) and stores once,
    over the whole output buffer, the payload of the two loaded blocks. So it leaves the inputs' buffers as they
    were and the output's at out0_2 of the two blocks (sound_kernel).
  * Neither argument array is written by any host line, and neither is staged by a window: window 0's array is
    a buffer of its own, holding a reshape of the second argument. The run's post therefore returns each at what
    the closing stretch leaves in a buffer the region never touches — what the region found there, which is the
    launch contents (W_main_arg0, W_main_arg1, frame_of, frame).
-/
import proofs.«115823_j24472723653052_2_alg».proof.Proof.Gen.Kernel.Launch
import proofs.«115823_j24472723653052_2_alg».proof.Proof.Gen.Kernel.Skeleton
import proofs.«115823_j24472723653052_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core c's TensorCore buffers hold when the region starts: the launch contents carried through the
    four stretches of host lines that precede it, in program order. -/
abbrev V0 (c : Dev nD) : Valuation τ sig (Elt F) :=
  StableHlo.after (List.flatten [hostOps0, hostOps0_1, hostOps0_2, hostOps0_3]) (fun b => m (c, b))
/-- The same contents, read at a TensorCore reference. -/
abbrev V (c : Dev nD) (b : Ref sig .tc) : Buf (Elt F) ((c : Thread nD τ).loc b) := V0 m c (Proc.devRef .tc b)

/-- No host line allocates a buffer: each one (the nine-operand concatenation included) writes a result it computes. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The program is: four stretches of host lines, the region, one more stretch. Holding the buffers at the launch
    contents, it reduces to the region entered at V and continued by the last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨fresh0, fresh0_1, fresh0_2, fresh0_3⟩) main_chain

/-- The closing stretch touches only the region's three arrays and buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- And none of its lines writes an array of the region: each writes its own result, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No line before the region writes the first argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the second: the reshape that feeds window 0 reads it and writes a buffer of its own. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The closing stretch writes neither argument array, and neither is an array of the region, so after the program
    the first one holds what the region found in it, which is the launch contents. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Likewise the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the windows stage -/

/-- The block of window w's array that grid point t addresses, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 addresses the same block at every point and is copied in at the first one only; its staging buffer
    nevertheless holds that block at every point, provided the array is the region-entry one and the body leaves
    the buffer as it found it: where nothing is copied the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is copied in at every point, so its staging buffer holds the point's block of its array. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the claim's -/

/-- Both argument arrays are buffers no window stages, so the run's post gives each the contents the closing
    stretch leaves, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The rectangles the body reads and writes: each staging buffer whole -/

abbrev r0_0 : Rect S64x576 := Rect.unit (s := S64x576) ![0, 0] S64x576.size inb_S64x576_S64x576_0_0
abbrev r0_1 : Rect S576x640 := Rect.unit (s := S576x640) ![0, 0] S576x640.size inb_S576x640_S576x640_0_0
abbrev r0_2 : Rect S64x640 := Rect.unit (s := S64x640) ![0, 0] S64x640.size inb_S64x640_S64x640_0_0

/-- What the body leaves in the output window's staging buffer, given the two input blocks: its single store, which
    covers the buffer, of the payload computed from the two blocks as loaded. -/
def out0_2 (x0 : Vec F S64x576 .f32) (x1 : Vec F S576x640 .f32) : Vec F S64x640 .f32 :=
  View.canon [⟨r0_2, k0_pay1 (k0_pay2 (View.ld x0 r0_0)) (k0_pay3 (View.ld x1 r0_1)) (k0_pay4 (View.ld x0 r0_0) (View.ld x1 r0_1)) (k0_pay5 (View.ld x1 r0_1)) (k0_pay6 (View.ld x0 r0_0))⟩]

/-- The one stored rectangle is the whole buffer. -/
theorem cover0_2 (p0 : Vec F S64x640 .f32) (y : S64x640.Idx) :
    ∃ pc ∈ ([⟨r0_2, p0⟩] : List (View.Piece (Elt F) S64x640 .f32)), y ∈ pc.1.set :=
  View.cover_of_tiled [⟨r0_2, p0⟩] S64x640.size (by rfl) y

/-! ## The body -/

set_option maxHeartbeats 1000000 in
/-- The body on three whole staging buffers — the inputs' at contents x0 and x1, the output's at anything — reaches
    its continuation with the inputs' unchanged and the output's at out0_2 x0 x1: it loads the two inputs whole,
    loads the output buffer (a value it never uses), and stores the payload over the whole output buffer. -/
theorem sound_kernel (c : Dev nD) (E : Set ℕ) (i : grid0.Coords)
    (arg1 : Memref sig .tc .vmem S64x576 .f32) (harg1 : arg1.IsWhole)
    (arg2 : Memref sig .tc .vmem S576x640 .f32) (harg2 : arg2.IsWhole)
    (arg3 : Memref sig .tc .vmem S64x640 .f32) (harg3 : arg3.IsWhole)
    (x0 : Vec F S64x576 .f32) (x1 : Vec F S576x640 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__adder_kernel i arg1 harg1 arg2 harg2 arg3 harg3) K := by
  simp only [cc0__adder_kernel_eq_skeleton]; unfold cc0__adder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core c: the three arrays as the region finds them; after the body at point t each input's staging buffer
    still at its block and the output's at out0_2 of the two blocks; the invariant that of a body with no state of
    its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (read off the definition; the fold over the host lines
    is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's staging buffer holds its block at every grid point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is entered with at point t: the invariant, what the core owes, and the three staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: both input buffers hold their blocks, the output buffer holds something, so the body's
    triple applies; the invariant and what is owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch theorem asks of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which needs plain
-- definitions unfolded inside a metavariable's type
set_option backward.isDefEq.respectTransparency.types false in
/-- From any memory with zero counters every weakly fair execution of the program on the TensorCores terminates
    without fault, and it ends with each array of the region at what the proof data compute and every other unscoped
    buffer as the closing stretch of host lines leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the program runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameKI.lean ====
/-
  The frame of the program: it terminates without fault and its two argument arrays end as launched. Stated for
  any float instance F.

  The program is four stretches of host lines (29 operations, one of them a nine-operand concatenation), one
  pipelined region over a grid of five points, and a closing stretch of three host lines.

  * The region finds every TensorCore buffer as the host lines before it left it (V0, V): the launch contents
    carried through the four stretches in order. None of those lines writes either argument array
    (V_main_arg0, V_main_arg1).
  * The region has three windows. Window 0 (input) stages a 64x576 array and addresses the same block of it at
    every grid point, so it is copied in at the first point only; window 1 (input) stages one 576x640 block of a
    576x3200 array per point and is copied in at every point. Either way the window's staging buffer holds, at
    every point, the point's block of its array as the region found it (before0_0_of, before0_1_of). Window 2
    (output) stages one 64x640 block of a 64x3200 array per point and is written back at every point.
  * The body loads both input buffers whole, loads the output buffer (a value it never uses) and stores once,
    over the whole output buffer, the payload of the two loaded blocks. So it leaves the inputs' buffers as they
    were and the output's at out0_2 of the two blocks (sound_kernel).
  * Neither argument array is written by any host line, and neither is staged by a window: window 0's array is
    a buffer of its own, holding a reshape of the second argument. The run's post therefore returns each at what
    the closing stretch leaves in a buffer the region never touches — what the region found there, which is the
    launch contents (W_main_arg0, W_main_arg1, frame_of, frame).
-/
import proofs.«115823_j24472723653052_2_alg».proof.Proof.Gen.KernelIdeal.Launch
import proofs.«115823_j24472723653052_2_alg».proof.Proof.Gen.KernelIdeal.Skeleton
import proofs.«115823_j24472723653052_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core c's TensorCore buffers hold when the region starts: the launch contents carried through the
    four stretches of host lines that precede it, in program order. -/
abbrev V0 (c : Dev nD) : Valuation τ sig (Elt F) :=
  StableHlo.after (List.flatten [hostOps0, hostOps0_1, hostOps0_2, hostOps0_3]) (fun b => m (c, b))
/-- The same contents, read at a TensorCore reference. -/
abbrev V (c : Dev nD) (b : Ref sig .tc) : Buf (Elt F) ((c : Thread nD τ).loc b) := V0 m c (Proc.devRef .tc b)

/-- No host line allocates a buffer: each one (the nine-operand concatenation included) writes a result it computes. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The program is: four stretches of host lines, the region, one more stretch. Holding the buffers at the launch
    contents, it reduces to the region entered at V and continued by the last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨fresh0, fresh0_1, fresh0_2, fresh0_3⟩) main_chain

/-- The closing stretch touches only the region's three arrays and buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- And none of its lines writes an array of the region: each writes its own result, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No line before the region writes the first argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the second: the reshape that feeds window 0 reads it and writes a buffer of its own. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The closing stretch writes neither argument array, and neither is an array of the region, so after the program
    the first one holds what the region found in it, which is the launch contents. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Likewise the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the windows stage -/

/-- The block of window w's array that grid point t addresses, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 addresses the same block at every point and is copied in at the first one only; its staging buffer
    nevertheless holds that block at every point, provided the array is the region-entry one and the body leaves
    the buffer as it found it: where nothing is copied the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is copied in at every point, so its staging buffer holds the point's block of its array. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the claim's -/

/-- Both argument arrays are buffers no window stages, so the run's post gives each the contents the closing
    stretch leaves, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The rectangles the body reads and writes: each staging buffer whole -/

abbrev r0_0 : Rect S64x576 := Rect.unit (s := S64x576) ![0, 0] S64x576.size inb_S64x576_S64x576_0_0
abbrev r0_1 : Rect S576x640 := Rect.unit (s := S576x640) ![0, 0] S576x640.size inb_S576x640_S576x640_0_0
abbrev r0_2 : Rect S64x640 := Rect.unit (s := S64x640) ![0, 0] S64x640.size inb_S64x640_S64x640_0_0

/-- What the body leaves in the output window's staging buffer, given the two input blocks: its single store, which
    covers the buffer, of the payload computed from the two blocks as loaded. -/
def out0_2 (x0 : Vec F S64x576 .f32) (x1 : Vec F S576x640 .f32) : Vec F S64x640 .f32 :=
  View.canon [⟨r0_2, k0_pay1 (k0_pay2 (View.ld x0 r0_0)) (k0_pay3 (View.ld x1 r0_1)) (k0_pay4 (View.ld x0 r0_0) (View.ld x1 r0_1)) (k0_pay5 (View.ld x1 r0_1)) (k0_pay6 (View.ld x0 r0_0))⟩]

/-- The one stored rectangle is the whole buffer. -/
theorem cover0_2 (p0 : Vec F S64x640 .f32) (y : S64x640.Idx) :
    ∃ pc ∈ ([⟨r0_2, p0⟩] : List (View.Piece (Elt F) S64x640 .f32)), y ∈ pc.1.set :=
  View.cover_of_tiled [⟨r0_2, p0⟩] S64x640.size (by rfl) y

/-! ## The body -/

set_option maxHeartbeats 1000000 in
/-- The body on three whole staging buffers — the inputs' at contents x0 and x1, the output's at anything — reaches
    its continuation with the inputs' unchanged and the output's at out0_2 x0 x1: it loads the two inputs whole,
    loads the output buffer (a value it never uses), and stores the payload over the whole output buffer. -/
theorem sound_kernel (c : Dev nD) (E : Set ℕ) (i : grid0.Coords)
    (arg1 : Memref sig .tc .vmem S64x576 .f32) (harg1 : arg1.IsWhole)
    (arg2 : Memref sig .tc .vmem S576x640 .f32) (harg2 : arg2.IsWhole)
    (arg3 : Memref sig .tc .vmem S64x640 .f32) (harg3 : arg3.IsWhole)
    (x0 : Vec F S64x576 .f32) (x1 : Vec F S576x640 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__adder_kernel i arg1 harg1 arg2 harg2 arg3 harg3) K := by
  simp only [cc0__adder_kernel_eq_skeleton]; unfold cc0__adder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core c: the three arrays as the region finds them; after the body at point t each input's staging buffer
    still at its block and the output's at out0_2 of the two blocks; the invariant that of a body with no state of
    its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (read off the definition; the fold over the host lines
    is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's staging buffer holds its block at every grid point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is entered with at point t: the invariant, what the core owes, and the three staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: both input buffers hold their blocks, the output buffer holds something, so the body's
    triple applies; the invariant and what is owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch theorem asks of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement, which needs plain
-- definitions unfolded inside a metavariable's type
set_option backward.isDefEq.respectTransparency.types false in
/-- From any memory with zero counters every weakly fair execution of the program on the TensorCores terminates
    without fault, and it ends with each array of the region at what the proof data compute and every other unscoped
    buffer as the closing stretch of host lines leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the program runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibBlockSum.lean ====
/-
  A finite sum accumulated block by block. The terms term 0, …, term (N - 1) are added up B at a time: after k
  blocks the accumulator holds the sum of the terms of index below k * B. This file states the three facts such an
  accumulation needs: the accumulator starts at zero, one more block adds exactly the B terms of that block, and
  once the bound reaches N the accumulator is the whole sum.
-/
import Mathlib.Algebra.BigOperators.Fin

namespace BlockSum

open scoped BigOperators

variable {M : Type*} [AddCommMonoid M] {N : ℕ}

/-- The kk-th index of block k lies below N as soon as the first k + 1 blocks of size B fit in N:
    k * B + kk < k * B + B = (k + 1) * B ≤ N. -/
theorem block_lt {B : ℕ} {k : ℕ} (hk : (k + 1) * B ≤ N) (kk : Fin B) : k * B + kk.val < N :=
  calc k * B + kk.val < k * B + B := Nat.add_lt_add_left kk.isLt _
    _ = (k + 1) * B := (Nat.succ_mul k B).symm
    _ ≤ N := hk

/-- The sum of the terms of index below n, for n ≤ N, is the sum over Fin n of the same terms: the indices of
    Fin N below n are exactly the images of Fin n under the inclusion Fin n → Fin N. -/
theorem partial_eq_sum_fin (term : Fin N → M) (n : ℕ) (hn : n ≤ N) :
    (∑ j ∈ Finset.univ.filter (fun j : Fin N => j.val < n), term j)
      = ∑ i : Fin n, term ⟨i.val, lt_of_lt_of_le i.isLt hn⟩ := by
  symm
  refine Finset.sum_bij (fun (i : Fin n) _ => (⟨i.val, lt_of_lt_of_le i.isLt hn⟩ : Fin N)) ?_ ?_ ?_ ?_
  · intro i _
    exact Finset.mem_filter.mpr ⟨Finset.mem_univ _, i.isLt⟩
  · intro a _ b _ h
    have hv : (⟨a.val, lt_of_lt_of_le a.isLt hn⟩ : Fin N).val = (⟨b.val, lt_of_lt_of_le b.isLt hn⟩ : Fin N).val :=
      congrArg Fin.val h
    exact Fin.ext hv
  · intro j hj
    exact ⟨⟨j.val, (Finset.mem_filter.mp hj).2⟩, Finset.mem_univ _, Fin.ext rfl⟩
  · intro i _
    rfl

/-- Before any block has been added the accumulator is zero: no index is below 0. -/
theorem partial_zero (term : Fin N → M) :
    (∑ j ∈ Finset.univ.filter (fun j : Fin N => j.val < 0), term j) = 0 := by
  rw [Finset.filter_false_of_mem (fun j _ => Nat.not_lt_zero j.val)]
  exact Finset.sum_empty

/-- One more block: the sum of the terms of index below (k + 1) * B is the sum of the terms of index below k * B
    plus the B terms of block k, those of index k * B + kk for kk < B. -/
theorem partial_step (term : Fin N → M) (B k : ℕ) (hk : (k + 1) * B ≤ N) :
    (∑ j ∈ Finset.univ.filter (fun j : Fin N => j.val < (k + 1) * B), term j)
      = (∑ j ∈ Finset.univ.filter (fun j : Fin N => j.val < k * B), term j)
        + ∑ kk : Fin B, term ⟨k * B + kk.val, block_lt hk kk⟩ := by
  have hk' : k * B ≤ N := le_trans (Nat.mul_le_mul_right B (Nat.le_succ k)) hk
  have e : k * B + B = (k + 1) * B := (Nat.succ_mul k B).symm
  rw [partial_eq_sum_fin term _ hk, partial_eq_sum_fin term _ hk']
  rw [← Fin.sum_congr' (fun i : Fin ((k + 1) * B) => term ⟨i.val, lt_of_lt_of_le i.isLt hk⟩) e,
    Fin.sum_univ_add]
  rfl

/-- Once the bound reaches N every index is below it, and the accumulator is the whole sum. -/
theorem partial_full (term : Fin N → M) (n : ℕ) (hn : N ≤ n) :
    (∑ j ∈ Finset.univ.filter (fun j : Fin N => j.val < n), term j) = ∑ j, term j := by
  rw [Finset.filter_true_of_mem (fun j _ => lt_of_lt_of_le j.isLt hn)]

end BlockSum
-- ==== Proof.Distance.lean ====
/-
  The arithmetic of the adder layer on the extended reals.  One output entry is minus the L1 distance between a filter
  row w and a patch column x, both of length 576:  -(∑ d, |w d - x d|),  with |a| spelt max a (-a).
  The kernel accumulates the distance in nine blocks of 64 consecutive terms, starting from zero, and negates by
  subtracting from zero; addition on the extended reals is commutative and associative with neutral 0, and 0 - a = -a
  at every extended real, so the blocked accumulation is the whole sum whatever the entries (infinite ones included).
-/
import Mathlib.Data.EReal.Basic
import Mathlib.Data.EReal.Operations
import proofs.«115823_j24472723653052_2_alg».proof.Proof.LibBlockSum

open scoped BigOperators

noncomputable section

namespace Cert.Adder

/-- |a - b| as both programs spell it: the larger of the difference and its negation. -/
def gap (a b : EReal) : EReal := max (a - b) (-(a - b))

/-- The L1 distance between two vectors of 576 extended reals. -/
def dist (w x : Fin 576 → EReal) : EReal := ∑ d : Fin 576, gap (w d) (x d)

/-- Block k of 64 consecutive terms (k < 9), as a sum over the position inside the block. -/
def blockSum (t : Fin 576 → EReal) (k : ℕ) (hk : (k + 1) * 64 ≤ 576) : EReal :=
  ∑ j : Fin 64, t ⟨k * 64 + j.val, BlockSum.block_lt hk j⟩

/-- Zero minus the nine blocks added one after the other onto zero is minus the whole sum. -/
theorem neg_blocks (t : Fin 576 → EReal) :
    (0 : EReal) - (((((((((0 + blockSum t 0 (by norm_num)) + blockSum t 1 (by norm_num)) + blockSum t 2 (by norm_num))
        + blockSum t 3 (by norm_num)) + blockSum t 4 (by norm_num)) + blockSum t 5 (by norm_num))
        + blockSum t 6 (by norm_num)) + blockSum t 7 (by norm_num)) + blockSum t 8 (by norm_num))
      = -(∑ d, t d) := by
  have s0 := BlockSum.partial_step t 64 0 (by norm_num)
  have s1 := BlockSum.partial_step t 64 1 (by norm_num)
  have s2 := BlockSum.partial_step t 64 2 (by norm_num)
  have s3 := BlockSum.partial_step t 64 3 (by norm_num)
  have s4 := BlockSum.partial_step t 64 4 (by norm_num)
  have s5 := BlockSum.partial_step t 64 5 (by norm_num)
  have s6 := BlockSum.partial_step t 64 6 (by norm_num)
  have s7 := BlockSum.partial_step t 64 7 (by norm_num)
  have s8 := BlockSum.partial_step t 64 8 (by norm_num)
  have z := BlockSum.partial_zero t
  have full := BlockSum.partial_full t ((8 + 1) * 64) (by norm_num)
  have hz : (∑ j ∈ Finset.univ.filter (fun j : Fin 576 => j.val < 0 * 64), t j) = 0 := by
    simpa using z
  unfold blockSum
  rw [zero_sub, ← full, s8, s7, s6, s5, s4, s3, s2, s1, s0, hz]

end Cert.Adder

end
-- ==== Proof.LibKeepdims3.lean ====
/-
  Rank-3 arrays with a kept unit axis, read at an index given by coordinates: the layout operations and the one-axis
  reductions a body meets when it sums or maximises over an axis with the axis kept (size 1) and broadcasts the result back.
  Every lemma names the operand's index by coordinates (`ix2`, `ix3` over literal extents), so it applies by unification.
  • a cast that appends a unit axis: an [a, b] array cast to [a, b, 1] at (i, j, u) is the operand at (i, j);
  • a broadcast between rank-3 shapes at (i, j, l) is the operand at the index that is 0 on each unit axis of the operand
    and the result's coordinate elsewhere (`broadcastTo3_apply`, with the five unit patterns named after it);
  • a float sum over the last or the middle axis at the kept coordinates is the `Fin`-indexed sum over that axis, and a
    float maximum over the middle axis is the fold of max from the accumulator's value over that axis.
-/
import Idealize.ShloMosaic.Lib.Pipeline.Value
import Idealize.ShloMosaic.Lib.ValueIdx
import Idealize.ShloMosaic.PureOps.Ideal.Laws

open scoped BigOperators

namespace Cert.LibKeepdims3

open Idealize.ShloMosaic Idealize.ShloMosaic.ValueIdx

variable {α : Type}

/-! ## A cast that appends a unit axis -/

/-- An `[a, b]` array cast to `[a, b, 1]` reads, at `(i, j, u)`, the operand at `(i, j)`: the two row-major positions
    are `i·b + j` and `(i·b + j)·1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## A broadcast between rank-3 shapes -/

/-- A `[p, q, r]` array broadcast to `[a, b, c]` reads, at `(i, j, l)`, the operand at the index whose coordinate on
    each axis is `0` where the operand's extent is one and the result's coordinate elsewhere. -/
theorem broadcastTo3_apply {p q r a b c : ℕ} (x : (⟨3, ![p, q, r]⟩ : Shape).Idx → α)
    (h : (⟨3, ![p, q, r]⟩ : Shape).Broadcasts ⟨3, ![a, b, c]⟩) (i : Fin a) (j : Fin b) (l : Fin c)
    (k0 : Fin p) (k1 : Fin q) (k2 : Fin r)
    (h0 : k0.val = if p = 1 then 0 else i.val) (h1 : k1.val = if q = 1 then 0 else j.val)
    (h2 : k2.val = if r = 1 then 0 else l.val) :
    broadcastTo ⟨3, ![a, b, c]⟩ x h (ix3 i j l) = x (ix3 k0 k1 k2) :=
  broadcastTo_apply x h (ix3 i j l) (ix3 k0 k1 k2) fun ax => by
    match ax with
    | ⟨0, _⟩ => exact h0
    | ⟨1, _⟩ => exact h1
    | ⟨2, _⟩ => exact h2

/-- A coordinate below an extent is the coordinate, or `0` when the extent is one. -/
theorem val_eq_ite {n : ℕ} (i : Fin n) : i.val = if n = 1 then 0 else i.val := by
  split
  · have := i.isLt; omega
  · rfl

/-- The unit coordinate is `0`. -/
theorem zero_eq_ite (v : ℕ) : (0 : Fin 1).val = if (1 : ℕ) = 1 then 0 else v := by rw [if_pos rfl]; rfl

/-- A column `[a, b, 1]` broadcast along the last axis to `[a, b, c]` reads, at `(i, j, l)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) :=
  broadcastTo3_apply x h i j l i j 0 (val_eq_ite i) (val_eq_ite j) (zero_eq_ite _)

/-- One value per leading index `[a, 1, 1]` broadcast along the middle axis to `[a, b, 1]` reads, at `(i, j, u)`, the
    operand at `(i, 0, 0)`. -/
theorem broadcastTo_a11_ab1_apply {a b : ℕ} (x : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ x h (ix3 i j u) = x (ix3 i (0 : Fin 1) (0 : Fin 1)) :=
  broadcastTo3_apply x h i j u i 0 0 (val_eq_ite i) (zero_eq_ite _) (zero_eq_ite _)

/-- One value per leading index `[a, 1, 1]` broadcast along the last axis to `[a, 1, c]` reads, at `(i, u, l)`, the
    operand at `(i, 0, 0)`. -/
theorem broadcastTo_a11_a1c_apply {a c : ℕ} (x : (⟨3, ![a, 1, 1]⟩ : Shape).Idx → α)
    (h : (⟨3, ![a, 1, 1]⟩ : Shape).Broadcasts ⟨3, ![a, 1, c]⟩) (i : Fin a) (u : Fin 1) (l : Fin c) :
    broadcastTo ⟨3, ![a, 1, c]⟩ x h (ix3 i u l) = x (ix3 i (0 : Fin 1) (0 : Fin 1)) :=
  broadcastTo3_apply x h i u l i 0 0 (val_eq_ite i) (zero_eq_ite _) (zero_eq_ite _)

/-- One row `[1, 1, c]` broadcast over the leading axis to `[a, 1, c]` reads, at `(i, u, l)`, the operand at `(0, 0, l)`. -/
theorem broadcastTo_11c_a1c_apply {a c : ℕ} (x : (⟨3, ![1, 1, c]⟩ : Shape).Idx → α)
    (h : (⟨3, ![1, 1, c]⟩ : Shape).Broadcasts ⟨3, ![a, 1, c]⟩) (i : Fin a) (u : Fin 1) (l : Fin c) :
    broadcastTo ⟨3, ![a, 1, c]⟩ x h (ix3 i u l) = x (ix3 (0 : Fin 1) (0 : Fin 1) l) :=
  broadcastTo3_apply x h i u l 0 0 l (zero_eq_ite _) (zero_eq_ite _) (val_eq_ite l)

/-- One column `[1, b, 1]` broadcast over the leading axis to `[a, b, 1]` reads, at `(i, j, u)`, the operand at `(0, j, 0)`. -/
theorem broadcastTo_1b1_ab1_apply {a b : ℕ} (x : (⟨3, ![1, b, 1]⟩ : Shape).Idx → α)
    (h : (⟨3, ![1, b, 1]⟩ : Shape).Broadcasts ⟨3, ![a, b, 1]⟩) (i : Fin a) (j : Fin b) (u : Fin 1) :
    broadcastTo ⟨3, ![a, b, 1]⟩ x h (ix3 i j u) = x (ix3 (0 : Fin 1) j (0 : Fin 1)) :=
  broadcastTo3_apply x h i j u 0 j 0 (zero_eq_ite _) (val_eq_ite j) (zero_eq_ite _)

/-! ## One-axis reductions at the kept coordinates -/

variable {φ : FTy}

/-- A float sum over the LAST axis of an `[a, b, c]` array, at `(i, j)`, is the sum over `l` of the array at `(i, j, l)`. -/
theorem sumLast3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) :=
  (Ideal.multiReduction_add_single src acc h hφ hacc (ix2 i j)).trans
    (Finset.sum_congr rfl fun l _ => congrArg src (funext fun ax => by
      match ax with
      | ⟨0, _⟩ => rfl
      | ⟨1, _⟩ => rfl
      | ⟨2, _⟩ => rfl))

/-- A float sum over the MIDDLE axis of an `[a, b, c]` array, at `(i, l)`, is the sum over `j` of the array at `(i, j, l)`. -/
theorem sumMid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ j : Fin b, src (ix3 i j l) :=
  (Ideal.multiReduction_add_single src acc h hφ hacc (ix2 i l)).trans
    (Finset.sum_congr rfl fun j _ => congrArg src (funext fun ax => by
      match ax with
      | ⟨0, _⟩ => rfl
      | ⟨1, _⟩ => rfl
      | ⟨2, _⟩ => rfl))

/-- A float maximum over the MIDDLE axis of an `[a, b, c]` array, at `(i, l)`, is the fold of max, from the value the
    accumulator's word denotes, over `j` of the array at `(i, j, l)`. -/
theorem maxMid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.maximumf.neutral φ hφ) (i : Fin a) (l : Fin c) :
    multiReduction .maximumf [1] ⟨2, ![a, c]⟩ src acc h hφ hacc (ix2 i l)
      = (Finset.univ : Finset (Fin b)).fold max (Ideal.ofBits φ acc) (fun j => src (ix3 i j l)) :=
  (Ideal.multiReduction_maximumf_single src acc h hφ hacc (ix2 i l)).trans
    (congrArg (fun f => (Finset.univ : Finset (Fin b)).fold max (Ideal.ofBits φ acc) f)
      (funext fun j => congrArg src (funext fun ax => by
        match ax with
        | ⟨0, _⟩ => rfl
        | ⟨1, _⟩ => rfl
        | ⟨2, _⟩ => rfl)))

end Cert.LibKeepdims3
-- ==== Proof.KernelBlock.lean ====
/-
  What the kernel body stores, entry by entry, at the exact extended-real reading.
  The body holds the whole filter matrix w (64 rows of 576 entries) and one tile x of the patch matrix (576 rows of
  640 columns).  For each of nine blocks of 64 consecutive row positions d it forms |w[f, d] - x[d, l]| for every
  filter f and column l, sums over the 64 positions of the block, and adds the block sums one after the other onto
  zero; it stores zero minus that total.  Entry (f, l) of the stored block is therefore minus the L1 distance between
  row f of w and column l of x.
-/
import proofs.«115823_j24472723653052_2_alg».proof.Proof.Gen.KernelIdeal.Skeleton
import proofs.«115823_j24472723653052_2_alg».proof.Proof.Distance
import proofs.«115823_j24472723653052_2_alg».proof.Proof.LibKeepdims3
import Idealize.ShloMosaic.Lib.ValueLayout
import Idealize.ShloMosaic.Lib.ValueIdx
import Idealize.ShloMosaic.Lib.Pipeline.Value
import Idealize.ShloMosaic.PureOps.Ideal.Laws

open scoped BigOperators

noncomputable section

namespace Cert.KernelIdeal.Block

open Idealize.ShloMosaic Idealize.ShloMosaic.ValueIdx Cert.KernelIdeal Cert.KernelIdeal.Gen Cert.Adder

/-- The sum, over the 64 row positions starting at `o`, of |w[f, o + j] - x[o + j, l]|, as the body computes it: the
    two slices, each given a unit axis and spread to 64 x 64 x 640, subtracted, made absolute, summed over the middle axis. -/
def blockOf (v1 : FVec Ideal S64x576 .f32) (v3 : FVec Ideal S576x640 .f32) (o : ℕ)
    (h0 : S64x576.Slices ![0, o] S64x64) (h1 : S576x640.Slices ![o, 0] S64x640) : FVec Ideal S64x640 .f32 :=
  multiReduction .add [1] S64x640
    (absf (subf
      (broadcastTo S64x64x640 (shapeCast S64x64x1 (extractStridedSlice S64x64 ![0, o] v1 h0) shapeCasts_S64x64_S64x64x1)
        broadcasts_S64x64x1_S64x64x640)
      (broadcastTo S64x64x640 (shapeCast S1x64x640 (extractStridedSlice S64x640 ![o, 0] v3 h1) shapeCasts_S64x640_S1x64x640)
        broadcasts_S1x64x640_S64x64x640)))
    0x00000000#32 reduces_S64x64x640_S64x640 (.inl rfl) rfl

/-- Entry (f, l) of a block sum: the 64 absolute differences of that block, added. -/
theorem blockOf_apply (v1 : FVec Ideal S64x576 .f32) (v3 : FVec Ideal S576x640 .f32) (o : ℕ) (ho : o + 64 ≤ 576)
    (h0 : S64x576.Slices ![0, o] S64x64) (h1 : S576x640.Slices ![o, 0] S64x640) (f : Fin 64) (l : Fin 640) :
    blockOf v1 v3 o h0 h1 (ix2 f l)
      = ∑ j : Fin 64, gap (v1 (ix2 f (⟨o + j.val, by have := j.isLt; omega⟩ : Fin 576)))
          (v3 (ix2 (⟨o + j.val, by have := j.isLt; omega⟩ : Fin 576) l)) := by
  unfold blockOf
  refine (Cert.LibKeepdims3.sumMid3_apply _ _ _ _ _ f l).trans ?_
  refine Finset.sum_congr rfl fun j _ => ?_
  show max (_ - _) (-(_ - _)) = gap _ _
  have hA : broadcastTo S64x64x640 (shapeCast S64x64x1 (extractStridedSlice S64x64 ![0, o] v1 h0) shapeCasts_S64x64_S64x64x1)
        broadcasts_S64x64x1_S64x64x640 (ix3 f j l)
      = v1 (ix2 f (⟨o + j.val, by have := j.isLt; omega⟩ : Fin 576)) := by
    refine (Cert.LibKeepdims3.broadcastTo_ab1_abc_apply _ _ f j l).trans ?_
    refine (Cert.LibKeepdims3.shapeCast_ab_ab1_apply _ _ f j 0).trans ?_
    exact extractStridedSlice_apply ![0, o] v1 h0 (ix2 f j) _ (fun a => match a with
      | ⟨0, _⟩ => by show f.val = 0 + f.val; omega
      | ⟨1, _⟩ => by show o + j.val = o + j.val; rfl)
  have hB : broadcastTo S64x64x640 (shapeCast S1x64x640 (extractStridedSlice S64x640 ![o, 0] v3 h1) shapeCasts_S64x640_S1x64x640)
        broadcasts_S1x64x640_S64x64x640 (ix3 f j l)
      = v3 (ix2 (⟨o + j.val, by have := j.isLt; omega⟩ : Fin 576) l) := by
    refine (Cert.LibKeepdims3.broadcastTo3_apply _ _ f j l (0 : Fin 1) j l (Cert.LibKeepdims3.zero_eq_ite _)
      (Cert.LibKeepdims3.val_eq_ite j) (Cert.LibKeepdims3.val_eq_ite l)).trans ?_
    refine (shapeCast_ab_1ab_apply _ _ (0 : Fin 1) j l).trans ?_
    exact extractStridedSlice_apply ![o, 0] v3 h1 (ix2 j l) _ (fun a => match a with
      | ⟨0, _⟩ => by show o + j.val = o + j.val; rfl
      | ⟨1, _⟩ => by show l.val = 0 + l.val; omega)
  rw [hA, hB]
  rfl

/-- The stored payload is zero minus the nine block sums added in order onto zero (the body's own text, regrouped). -/
theorem pay_eq_blocks (v0 : Vec Ideal S64x576 .f32) (v2 : Vec Ideal S576x640 .f32) :
    k0_pay1 (F := Ideal) (k0_pay2 v0) (k0_pay3 v2) (k0_pay4 v0 v2) (k0_pay5 v2) (k0_pay6 v0)
      = subf (broadcast S64x640 (Scalar.ofBits .f32 0x00000000#32))
          (addf (addf (addf (addf (addf (addf (addf (addf (addf (broadcast S64x640 (Scalar.ofBits .f32 0x00000000#32))
            (blockOf (k0_pay2 v0) (k0_pay3 v2) 0 slices_S64x576_o0_0_S64x64 slices_S576x640_o0_0_S64x640))
            (blockOf (k0_pay2 v0) (k0_pay3 v2) 64 slices_S64x576_o0_64_S64x64 slices_S576x640_o64_0_S64x640))
            (blockOf (k0_pay2 v0) (k0_pay3 v2) 128 slices_S64x576_o0_128_S64x64 slices_S576x640_o128_0_S64x640))
            (blockOf (k0_pay2 v0) (k0_pay3 v2) 192 slices_S64x576_o0_192_S64x64 slices_S576x640_o192_0_S64x640))
            (blockOf (k0_pay2 v0) (k0_pay3 v2) 256 slices_S64x576_o0_256_S64x64 slices_S576x640_o256_0_S64x640))
            (blockOf (k0_pay2 v0) (k0_pay3 v2) 320 slices_S64x576_o0_320_S64x64 slices_S576x640_o320_0_S64x640))
            (blockOf (k0_pay2 v0) (k0_pay3 v2) 384 slices_S64x576_o0_384_S64x64 slices_S576x640_o384_0_S64x640))
            (blockOf (k0_pay2 v0) (k0_pay3 v2) 448 slices_S64x576_o0_448_S64x64 slices_S576x640_o448_0_S64x640))
            (blockOf (k0_pay2 v0) (k0_pay3 v2) 512 slices_S64x576_o0_512_S64x64 slices_S576x640_o512_0_S64x640)) := by
  unfold k0_pay1 k0_pay4 k0_pay5 k0_pay6 blockOf
  rfl

/-- The two loaded vectors pass through a cast to their own shape: nothing changes. -/
theorem pay2_self (v0 : Vec Ideal S64x576 .f32) : k0_pay2 (F := Ideal) v0 = v0 := by
  unfold k0_pay2; exact shapeCast_self _ _
theorem pay3_self (v2 : Vec Ideal S576x640 .f32) : k0_pay3 (F := Ideal) v2 = v2 := by
  unfold k0_pay3; exact shapeCast_self _ _

/-- Entry (f, l) of what the body stores: minus the L1 distance between row f of the filter matrix and column l of
    the patch tile. -/
theorem pay_apply (v0 : Vec Ideal S64x576 .f32) (v2 : Vec Ideal S576x640 .f32) (f : Fin 64) (l : Fin 640) :
    k0_pay1 (F := Ideal) (k0_pay2 v0) (k0_pay3 v2) (k0_pay4 v0 v2) (k0_pay5 v2) (k0_pay6 v0) (ix2 f l)
      = -(dist (fun d => v0 (ix2 f d)) (fun d => v2 (ix2 d l))) := by
  rw [pay_eq_blocks, pay2_self, pay3_self]
  show Ideal.ofBits .f32 0x00000000#32 - (((((((((Ideal.ofBits .f32 0x00000000#32 + blockOf v0 v2 0 _ _ (ix2 f l))
    + blockOf v0 v2 64 _ _ (ix2 f l)) + blockOf v0 v2 128 _ _ (ix2 f l)) + blockOf v0 v2 192 _ _ (ix2 f l))
    + blockOf v0 v2 256 _ _ (ix2 f l)) + blockOf v0 v2 320 _ _ (ix2 f l)) + blockOf v0 v2 384 _ _ (ix2 f l))
    + blockOf v0 v2 448 _ _ (ix2 f l)) + blockOf v0 v2 512 _ _ (ix2 f l)) = _
  rw [Ideal.ofBits_zero_f32, blockOf_apply v0 v2 0 (by norm_num), blockOf_apply v0 v2 64 (by norm_num),
    blockOf_apply v0 v2 128 (by norm_num), blockOf_apply v0 v2 192 (by norm_num), blockOf_apply v0 v2 256 (by norm_num),
    blockOf_apply v0 v2 320 (by norm_num), blockOf_apply v0 v2 384 (by norm_num), blockOf_apply v0 v2 448 (by norm_num),
    blockOf_apply v0 v2 512 (by norm_num)]
  exact neg_blocks (fun d => gap (v0 (ix2 f d)) (v2 (ix2 d l)))

end Cert.KernelIdeal.Block

end
-- ==== Proof.Spec.lean ====
/-
  The adder layer as one function of the patch array and the filter array.
  The patch array P has shape [4, 64, 9, 28, 28]: P[n, c, q, ho, wo] is the padded input of image n, channel c, taken
  at row ho + q / 3 and column wo + q % 3 (both programs build it by the same nine shifted slices, so it is carried as
  a whole, never opened).  The filter array W has shape [64, 64, 3, 3].  Position d < 576 of a patch column or of a
  filter row is the pair (c, q) = (d / 9, d % 9), i.e. (c, kh, kw) = (d / 9, d / 3 % 3, d % 3).
  The result at (n, f, ho, wo) is minus the L1 distance, over the 576 positions, between filter f and the patch of
  image n at (ho, wo).
-/
import proofs.«115823_j24472723653052_2_alg».proof.Proof.Distance
import Idealize.ShloMosaic.Lib.ValueIdx

noncomputable section

namespace Cert.Adder

open Idealize.ShloMosaic Idealize.ShloMosaic.ValueIdx

/-- Position d of filter f, in the filter array's own coordinates (channel d / 9, kernel row d / 3 % 3, column d % 3). -/
def filterIdx (f : Fin 64) (d : Fin 576) : (⟨4, ![64, 64, 3, 3]⟩ : Shape).Idx :=
  ix4 f (⟨d.val / 9, by have := d.isLt; omega⟩ : Fin 64) (⟨d.val / 3 % 3, Nat.mod_lt _ (by norm_num)⟩ : Fin 3)
    (⟨d.val % 3, Nat.mod_lt _ (by norm_num)⟩ : Fin 3)

/-- Position d of the patch of image n at output pixel (ho, wo), in the patch array's coordinates (channel d / 9,
    shift d % 9). -/
def patchIdx (n : Fin 4) (d : Fin 576) (ho wo : Fin 28) : (⟨5, ![4, 64, 9, 28, 28]⟩ : Shape).Idx :=
  ix5 n (⟨d.val / 9, by have := d.isLt; omega⟩ : Fin 64) (⟨d.val % 9, Nat.mod_lt _ (by norm_num)⟩ : Fin 9) ho wo

/-- One output entry: minus the L1 distance between filter f and the patch of image n at (ho, wo). -/
def adderAt (P : (⟨5, ![4, 64, 9, 28, 28]⟩ : Shape).Idx → EReal) (W : (⟨4, ![64, 64, 3, 3]⟩ : Shape).Idx → EReal)
    (n : Fin 4) (f : Fin 64) (ho wo : Fin 28) : EReal :=
  -(dist (fun d => W (filterIdx f d)) (fun d => P (patchIdx n d ho wo)))

/-- The whole output array [4, 64, 28, 28]. -/
def adder (P : (⟨5, ![4, 64, 9, 28, 28]⟩ : Shape).Idx → EReal) (W : (⟨4, ![64, 64, 3, 3]⟩ : Shape).Idx → EReal) :
    (⟨4, ![4, 64, 28, 28]⟩ : Shape).Idx → EReal :=
  fun i => adderAt P W (i 0) (i 1) (i 2) (i 3)

theorem adder_ix4 (P : (⟨5, ![4, 64, 9, 28, 28]⟩ : Shape).Idx → EReal) (W : (⟨4, ![64, 64, 3, 3]⟩ : Shape).Idx → EReal)
    (n : Fin 4) (f : Fin 64) (ho wo : Fin 28) : adder P W (ix4 n f ho wo) = adderAt P W n f ho wo := rfl

end Cert.Adder

end
-- ==== Proof.KernelLayout.lean ====
/-
  The kernel program's layout steps around its region, read at an index.
  Before the region the patch array P [4, 64, 9, 28, 28] is reshaped to [4, 576, 28, 28], its first two axes exchanged,
  reshaped to the matrix [576, 3136] whose column of (n, ho, wo) is n * 784 + ho * 28 + wo, and padded on the right with
  64 zero columns to [576, 3200]; the filter array is reshaped to [64, 576].  The region computes, for every filter row f
  and every one of the 3200 columns, minus the L1 distance between that row and that column.  After the region the 64
  padding columns are dropped, the columns are split back into (n, ho, wo) and the first two axes exchanged.
  So entry (n, f, ho, wo) of the result reads column n * 784 + ho * 28 + wo, which lies left of the padding, and the
  result is the adder layer of P and the filter array.
-/
import proofs.«115823_j24472723653052_2_alg».proof.Proof.Gen.KernelIdeal
import proofs.«115823_j24472723653052_2_alg».proof.Proof.Spec
import Idealize.ShloMosaic.Lib.Pipeline.Value
import Idealize.ShloMosaic.Lib.ValueIdx
import Idealize.ShloMosaic.Lib.KernelVsHost

open scoped BigOperators

noncomputable section

namespace Cert.KernelIdeal.Layout

open Idealize.ShloMosaic Idealize.ShloMosaic.ValueIdx Cert.KernelIdeal Cert.Adder

/-- The filter matrix the region reads: the filter array, reshaped. -/
def filterRows (w : FVec Ideal S64x64x3x3 .f32) : FVec Ideal S64x576 .f32 :=
  shapeCast S64x576 w Gen.shapeCasts_S64x64x3x3_S64x576

/-- The patch matrix the region reads: the patch array reshaped, transposed, reshaped and padded with 64 columns. -/
def patchCols (P : FVec Ideal S4x64x9x28x28 .f32) : FVec Ideal S576x3200 .f32 :=
  pad S576x3200 ![0, 0] ![0, 64] ![0, 0]
    (shapeCast S576x3136
      (transpose S576x4x28x28 [1, 0, 2, 3] (shapeCast S4x576x28x28 P Gen.shapeCasts_S4x64x9x28x28_S4x576x28x28)
        Gen.transposes_S4x576x28x28_S576x4x28x28_1_0_2_3)
      Gen.shapeCasts_S576x4x28x28_S576x3136)
    (sitofp (F := Ideal) .f32 (constantI S_ 32 0#32)) Gen.pads_S576x3136_S576x3200_000_0640 Gen.h_S_

/-- What the region leaves in its output matrix: at (f, l), minus the L1 distance between row f of the filter matrix
    and column l of the patch matrix. -/
def distances (A : FVec Ideal S64x576 .f32) (B : FVec Ideal S576x3200 .f32) : FVec Ideal S64x3200 .f32 :=
  fun i => -(dist (fun d => A (ix2 (i 0) d)) (fun d => B (ix2 d (i 1))))

/-- The lines after the region: drop the padding columns, split the columns into (n, ho, wo), exchange the first two axes. -/
def unfoldCols (R : FVec Ideal S64x3200 .f32) : FVec Ideal S4x64x28x28 .f32 :=
  transpose S4x64x28x28 [1, 0, 2, 3]
    (shapeCast S64x4x28x28 (extractStridedSlice S64x3136 ![0, 0] R Gen.slices_S64x3200_S64x3136_0_0)
      Gen.shapeCasts_S64x3136_S64x4x28x28)
    Gen.transposes_S64x4x28x28_S4x64x28x28_1_0_2_3

/-- Entry (n, f, ho, wo) of the unfolded result is entry (f, n * 784 + ho * 28 + wo) of the matrix. -/
theorem unfoldCols_apply (R : FVec Ideal S64x3200 .f32) (n : Fin 4) (f : Fin 64) (ho wo : Fin 28) :
    unfoldCols R (ix4 n f ho wo)
      = R (ix2 f (⟨(n.val * 28 + ho.val) * 28 + wo.val, by have := n.isLt; have := ho.isLt; have := wo.isLt; omega⟩ : Fin 3200)) := by
  have hn := n.isLt; have hf := f.isLt; have hh := ho.isLt; have hw := wo.isLt
  unfold unfoldCols
  refine (transpose_apply [1, 0, 2, 3] _ _ (ix4 n f ho wo) (ix4 f n ho wo) (fun b => match b with
    | ⟨0, _⟩ => rfl
    | ⟨1, _⟩ => rfl
    | ⟨2, _⟩ => rfl
    | ⟨3, _⟩ => rfl)).trans ?_
  refine (shapeCast_apply _ _ (ix4 f n ho wo)
    (ix2 f (⟨(n.val * 28 + ho.val) * 28 + wo.val, by omega⟩ : Fin 3136)) (by
      rw [Shape.rowMajor_val_two, Shape.rowMajor_val_four]
      show f.val * 3136 + ((n.val * 28 + ho.val) * 28 + wo.val) = ((f.val * 4 + n.val) * 28 + ho.val) * 28 + wo.val
      omega)).trans ?_
  exact extractStridedSlice_apply ![0, 0] R _ _ _ (fun a => match a with
    | ⟨0, _⟩ => by show f.val = 0 + f.val; omega
    | ⟨1, _⟩ => by show (n.val * 28 + ho.val) * 28 + wo.val = 0 + ((n.val * 28 + ho.val) * 28 + wo.val); omega)

/-- Entry (f, d) of the filter matrix is position d of filter f. -/
theorem filterRows_apply (w : FVec Ideal S64x64x3x3 .f32) (f : Fin 64) (d : Fin 576) :
    filterRows w (ix2 f d) = w (filterIdx f d) := by
  have hf := f.isLt; have hd := d.isLt
  unfold filterRows
  exact shapeCast_apply w _ (ix2 f d) (filterIdx f d) (by
    rw [Shape.rowMajor_val_four, Shape.rowMajor_val_two]
    show ((f.val * 64 + d.val / 9) * 3 + d.val / 3 % 3) * 3 + d.val % 3 = f.val * 576 + d.val
    omega)

/-- Entry (d, n * 784 + ho * 28 + wo) of the patch matrix — a column left of the padding — is position d of the patch
    of image n at (ho, wo). -/
theorem patchCols_apply (P : FVec Ideal S4x64x9x28x28 .f32) (n : Fin 4) (d : Fin 576) (ho wo : Fin 28) :
    patchCols P (ix2 d (⟨(n.val * 28 + ho.val) * 28 + wo.val, by have := n.isLt; have := ho.isLt; have := wo.isLt; omega⟩ : Fin 3200))
      = P (patchIdx n d ho wo) := by
  have hn := n.isLt; have hd := d.isLt; have hh := ho.isLt; have hw := wo.isLt
  unfold patchCols
  refine (pad_apply_of_inside ![0, 0] ![0, 64] ![0, 0] _ _ _ _ _
    (ix2 d (⟨(n.val * 28 + ho.val) * 28 + wo.val, by omega⟩ : Fin 3136)) (fun a => match a with
      | ⟨0, _⟩ => by show d.val = 0 + d.val * (0 + 1); omega
      | ⟨1, _⟩ => by
          show (n.val * 28 + ho.val) * 28 + wo.val = 0 + ((n.val * 28 + ho.val) * 28 + wo.val) * (0 + 1); omega)).trans ?_
  refine (shapeCast_apply _ _ _ (ix4 d n ho wo) (by
      rw [Shape.rowMajor_val_four, Shape.rowMajor_val_two]
      show ((d.val * 4 + n.val) * 28 + ho.val) * 28 + wo.val = d.val * 3136 + ((n.val * 28 + ho.val) * 28 + wo.val)
      omega)).trans ?_
  refine (transpose_apply [1, 0, 2, 3] _ _ (ix4 d n ho wo) (ix4 n d ho wo) (fun b => match b with
    | ⟨0, _⟩ => rfl
    | ⟨1, _⟩ => rfl
    | ⟨2, _⟩ => rfl
    | ⟨3, _⟩ => rfl)).trans ?_
  exact shapeCast_apply P _ (ix4 n d ho wo) (patchIdx n d ho wo) (by
    rw [Shape.rowMajor_val_five, Shape.rowMajor_val_four]
    show (((n.val * 64 + d.val / 9) * 9 + d.val % 9) * 28 + ho.val) * 28 + wo.val
      = ((n.val * 576 + d.val) * 28 + ho.val) * 28 + wo.val
    omega)

/-- The program's layout steps around the distance matrix give the adder layer of the patch array and the filters. -/
theorem unfold_distances (P : FVec Ideal S4x64x9x28x28 .f32) (w : FVec Ideal S64x64x3x3 .f32) :
    unfoldCols (distances (filterRows w) (patchCols P)) = adder P w := by
  funext i
  obtain ⟨n, f, ho, wo, rfl⟩ : ∃ (n : Fin 4) (f : Fin 64) (ho wo : Fin 28), i = ix4 n f ho wo :=
    ⟨i 0, i 1, i 2, i 3, eq_ix4 i⟩
  rw [unfoldCols_apply, adder_ix4]
  have hn := n.isLt; have hh := ho.isLt; have hw := wo.isLt
  show -(∑ d : Fin 576, gap (filterRows w (ix2 f d))
      (patchCols P (ix2 d (⟨(n.val * 28 + ho.val) * 28 + wo.val, by omega⟩ : Fin 3200))))
    = -(∑ d : Fin 576, gap (w (filterIdx f d)) (P (patchIdx n d ho wo)))
  refine congrArg Neg.neg (Finset.sum_congr rfl fun d _ => ?_)
  rw [filterRows_apply, patchCols_apply]

end Cert.KernelIdeal.Layout

end
-- ==== Proof.KernelRun.lean ====
/-
  The kernel program's result array, at the exact extended-real reading.
  At grid point t the region holds the whole filter matrix (window 0, the same block at every point) and columns
  640 t … 640 t + 639 of the padded patch matrix (window 1), and writes back columns 640 t … 640 t + 639 of its
  output matrix (window 2).  By the body's arithmetic, entry (f, l) of what point t writes back is minus the L1
  distance between filter row f and column 640 t + l of the patch matrix; the five blocks tile the 3200 columns, so
  after the region the output matrix is the distance matrix of the two matrices the region found.  Those two are the
  reshaped filter array and the reshaped, transposed, reshaped and padded patch array; the lines after the region drop
  the padding and restore the (n, f, ho, wo) order.  Hence the result array is the adder layer of the patch array and
  the filter array.
-/
import proofs.«115823_j24472723653052_2_alg».proof.Proof.FrameKI
import proofs.«115823_j24472723653052_2_alg».proof.Proof.KernelBlock
import proofs.«115823_j24472723653052_2_alg».proof.Proof.KernelLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Hand Cert.KernelIdeal.Layout Cert.KernelIdeal.Block Cert.Adder

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: windows 0 at block (0, 0); windows 1 and 2 at block (0, t). -/
theorem block_at : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem point_lt (t : Fin cfg0.N) : t.val < 5 := lt_of_lt_of_eq t.isLt N_0

/-- Window 0's block at any point is the whole filter matrix. -/
theorem read0 (c : Dev nD) (t : Fin cfg0.N) (f : Fin 64) (d : Fin 576) :
    (iblk m c 0 t : Vec Ideal S64x576 .f32) (ix2 f d) = (V m c main_v23 : FVec Ideal S64x576 .f32) (ix2 f d) := by
  obtain ⟨e00, e01, -, -, -, -⟩ := block_at t
  unfold iblk
  rw [View.read_apply]
  show V m c main_v23 _ = V m c main_v23 _
  refine congrArg _ (funext fun a => Fin.ext ?_)
  match a with
  | ⟨0, _⟩ => show win0_0.index t (0 : Fin 2) * 64 + 1 * f.val = f.val; rw [e00]; omega
  | ⟨1, _⟩ => show win0_0.index t (1 : Fin 2) * 576 + 1 * d.val = d.val; rw [e01]; omega

/-- Window 1's block at point t is columns 640 t … 640 t + 639 of the padded patch matrix. -/
theorem read1 (c : Dev nD) (t : Fin cfg0.N) (d : Fin 576) (l : Fin 640) :
    (iblk m c 1 t : Vec Ideal S576x640 .f32) (ix2 d l)
      = (V m c main_v24 : FVec Ideal S576x3200 .f32)
          (ix2 d (⟨t.val * 640 + l.val, by have := point_lt t; have := l.isLt; omega⟩ : Fin 3200)) := by
  obtain ⟨-, -, e10, e11, -, -⟩ := block_at t
  unfold iblk
  rw [View.read_apply]
  show V m c main_v24 _ = V m c main_v24 _
  refine congrArg _ (funext fun a => Fin.ext ?_)
  match a with
  | ⟨0, _⟩ => show win0_1.index t (0 : Fin 2) * 576 + 1 * d.val = d.val; rw [e10]; omega
  | ⟨1, _⟩ => show win0_1.index t (1 : Fin 2) * 640 + 1 * l.val = t.val * 640 + l.val; rw [e11]; omega

/-- Entry (f, l) of window 2's block at point t sits at (f, 640 t + l) of the output matrix. -/
theorem emb2 (t : Fin cfg0.N) (f : Fin 64) (l : Fin 640) :
    (((cfg0.win 2).blk t).view.emb (ix2 f l) : S64x3200.Idx)
      = ix2 f (⟨t.val * 640 + l.val, by have := point_lt t; have := l.isLt; omega⟩ : Fin 3200) := by
  obtain ⟨-, -, -, -, e20, e21⟩ := block_at t
  refine funext fun a => Fin.ext ?_
  match a with
  | ⟨0, _⟩ => show win0_2.index t (0 : Fin 2) * 64 + 1 * f.val = f.val; rw [e20]; omega
  | ⟨1, _⟩ => show win0_2.index t (1 : Fin 2) * 640 + 1 * l.val = t.val * 640 + l.val; rw [e21]; omega

/-- What point t writes back is block t of the distance matrix of the two matrices the region found. -/
theorem flushed_eq (c : Dev nD) (t : Fin cfg0.N) :
    (dats m 0 c).flushed 2 t
      = ((cfg0.win 2).blk t).view.read (Elt Ideal) (distances (V m c main_v23) (V m c main_v24)) := by
  show (cfg0.win 2).cut (grid0.coords t) ((dats m 0 c).after 2 t) = _
  rw [after0_2]
  unfold out0_2
  rw [View.canon_unit_zero hz]
  simp only [View.ld_unit_zero (S := S64x576) hz, View.ld_unit_zero (S := S576x640) hz]
  funext j
  obtain ⟨f, l, rfl⟩ : ∃ (f : Fin 64) (l : Fin 640), j = ix2 f l := ⟨j 0, j 1, @eq_ix2 64 640 j⟩
  rw [View.read_apply, emb2]
  refine (pay_apply (iblk m c 0 t) (iblk m c 1 t) f l).trans ?_
  show -(dist (fun d => (iblk m c 0 t : Vec Ideal S64x576 .f32) (ix2 f d))
      (fun d => (iblk m c 1 t : Vec Ideal S576x640 .f32) (ix2 d l)))
    = -(dist (fun d => (V m c main_v23 : FVec Ideal S64x576 .f32) (ix2 f d))
        (fun d => (V m c main_v24 : FVec Ideal S576x3200 .f32) (ix2 d _)))
  refine congrArg Neg.neg ?_
  refine congrArg₂ dist (funext fun d => read0 m c t f d) (funext fun d => read1 m c t d l)

/-- An index of the output matrix is in point t's block iff each coordinate is in the block's range. -/
theorem mem_blk (t : Fin cfg0.N) (i : S64x3200.Idx) :
    i ∈ ((cfg0.win 2).blk t).view.set ↔ ∀ a : Fin 2, win0_2.index t a * S64x640.size a ≤ (i a).val
      ∧ (i a).val < win0_2.index t a * S64x640.size a + S64x640.size a := by
  show i ∈ ((View.whole main_v25).slice (win0_2.rect t)).set ↔ _
  rw [View.set_slice_whole, Rect.mem_set_unit]
  exact Iff.rfl

/-- The five blocks tile the output matrix, so after the region it is the whole distance matrix. -/
theorem final (c : Dev nD) :
    (dats m 0 c).arrAt 2 cfg0.N = distances (V m c main_v23) (V m c main_v24) :=
  (dats m 0 c).arrAt_eq_of_cover 2 _ (fun t _ => flushed_eq m c t) fun i => by
    have h0 : (i 0).val < 64 := (i 0).isLt
    have h1 : (i 1).val < 3200 := (i 1).isLt
    let t : Fin cfg0.N := ⟨(i 1).val / 640, by rw [show cfg0.N = 5 from N_0]; omega⟩
    obtain ⟨-, -, -, -, e20, e21⟩ := block_at t
    have ht : t.val = (i 1).val / 640 := rfl
    refine ⟨t, flush0_2 t, ?_⟩
    rw [mem_blk]
    intro a
    match a with
    | ⟨0, _⟩ =>
      show win0_2.index t (0 : Fin 2) * 64 ≤ (i 0).val ∧ (i 0).val < win0_2.index t (0 : Fin 2) * 64 + 64
      rw [e20]; omega
    | ⟨1, _⟩ =>
      show win0_2.index t (1 : Fin 2) * 640 ≤ (i 1).val ∧ (i 1).val < win0_2.index t (1 : Fin 2) * 640 + 640
      rw [e21, ht]; omega

/-! ## The host lines before the region -/

/-- The input padded by one zero on each side of its last two axes. -/
def padded (x : FVec Ideal S4x64x28x28 .f32) : FVec Ideal S4x64x30x30 .f32 :=
  pad S4x64x30x30 ![0, 0, 1, 1] ![0, 0, 1, 1] ![0, 0, 0, 0] x (sitofp (F := Ideal) .f32 (constantI S_ 32 0#32))
    Gen.pads_S4x64x28x28_S4x64x30x30_000_000_110_110 Gen.h_S_

/-- One of the nine shifted 28 x 28 views of the padded input, with a unit axis for the shift. -/
def shifted (x : FVec Ideal S4x64x28x28 .f32) (off : Fin 4 → Nat) (h : S4x64x30x30.Slices off S4x64x28x28) :
    FVec Ideal S4x64x1x28x28 .f32 :=
  broadcastInDim S4x64x1x28x28 ![0, 1, 3, 4] Gen.bcast_S4x64x28x28_S4x64x1x28x28_0_1_3_4
    (extractStridedSlice S4x64x28x28 off (padded x) h)

/-- The patch array: the nine shifted views joined along the shift axis. -/
def patches (x : FVec Ideal S4x64x28x28 .f32) : FVec Ideal S4x64x9x28x28 .f32 :=
  concatenate S4x64x9x28x28 2
    [⟨S4x64x1x28x28, shifted x ![0, 0, 0, 0] Gen.slices_S4x64x30x30_S4x64x28x28_0_0_0_0⟩,
     ⟨S4x64x1x28x28, shifted x ![0, 0, 0, 1] Gen.slices_S4x64x30x30_S4x64x28x28_0_0_0_1⟩,
     ⟨S4x64x1x28x28, shifted x ![0, 0, 0, 2] Gen.slices_S4x64x30x30_S4x64x28x28_0_0_0_2⟩,
     ⟨S4x64x1x28x28, shifted x ![0, 0, 1, 0] Gen.slices_S4x64x30x30_S4x64x28x28_0_0_1_0⟩,
     ⟨S4x64x1x28x28, shifted x ![0, 0, 1, 1] Gen.slices_S4x64x30x30_S4x64x28x28_0_0_1_1⟩,
     ⟨S4x64x1x28x28, shifted x ![0, 0, 1, 2] Gen.slices_S4x64x30x30_S4x64x28x28_0_0_1_2⟩,
     ⟨S4x64x1x28x28, shifted x ![0, 0, 2, 0] Gen.slices_S4x64x30x30_S4x64x28x28_0_0_2_0⟩,
     ⟨S4x64x1x28x28, shifted x ![0, 0, 2, 1] Gen.slices_S4x64x30x30_S4x64x28x28_0_0_2_1⟩,
     ⟨S4x64x1x28x28, shifted x ![0, 0, 2, 2] Gen.slices_S4x64x30x30_S4x64x28x28_0_0_2_2⟩]
    Gen.concatenates_S4x64x1x28x28_S4x64x1x28x28_S4x64x1x28x28_S4x64x1x28x28_S4x64x1x28x28_S4x64x1x28x28_S4x64x1x28x28_S4x64x1x28x28_S4x64x1x28x28_S4x64x9x28x28_d2

/-- The region finds the reshaped filter array in window 0's array. -/
theorem found_filters (c : Dev nD) :
    (V m c main_v23 : FVec Ideal S64x576 .f32) = filterRows (m ((c : Thread nD τ).loc main_arg1)) := by
  dsimp only [V, V0]
  simp only [hostOps0, hostOps0_1, hostOps0_2, hostOps0_3, List.flatten_cons, List.flatten_nil, List.append_nil,
    List.cons_append, List.nil_append]
  after_results
  rfl

/-- The region finds the padded patch matrix in window 1's array. -/
theorem found_patches (c : Dev nD) :
    (V m c main_v24 : FVec Ideal S576x3200 .f32) = patchCols (patches (m ((c : Thread nD τ).loc main_arg0))) := by
  dsimp only [V, V0]
  simp only [hostOps0, hostOps0_1, hostOps0_2, hostOps0_3, List.flatten_cons, List.flatten_nil, List.append_nil,
    List.cons_append, List.nil_append]
  after_results
  rfl

/-! ## The host lines after the region -/

/-- The result buffer after the closing lines: the output matrix of the region, padding dropped and axes restored. -/
theorem tail_result (c : Dev nD) :
    Pipeline.afterTail₀ cfgs (dats m) 0 (V0 m) [hostOps1] c main_v28 = unfoldCols ((dats m 0 c).arrAt 2 cfg0.N) := by
  unfold Pipeline.afterTail₀
  show StableHlo.after hostOps1 _ (Proc.devRef .tc main_v28) = _
  after_results
  have e : Pipeline.withArrays (cfgs 0).spec c (V0 m c) (fun w => (dats m 0 c).arrAt w (cfgs 0).N)
      (Proc.devRef .tc main_v25) = (dats m 0 c).arrAt 2 cfg0.N :=
    Pipeline.withArrays_arr spec0 launch0.win.arr_inj c _ _ 2
  rw [e]
  rfl

/-! ## The run -/

/-- The program's run: the result array ends at the adder layer of the patch array and the filter array, and the two
    argument arrays end as launched. -/
theorem run : θ_run defs (onTc (τ := τ) (main (F := Ideal))) ⟨m, fun _ => 0, ρ⟩ fun r => ∀ c : Dev nD,
      r.2.mem ((c.tc : Thread nD τ).loc main_v28)
        = adder (patches (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v28 (Pipeline.mem_restRefs_of main_v28 (by decide) (by decide))).trans
        ((tail_result m c).trans (by rw [final, found_filters, found_patches, unfold_distances])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Arr

end
-- ==== Proof.RefStages.lean ====
/-
  The reference computes the adder layer.  Reading its result at (n, f, ho, wo) stage by stage: the last transpose and
  reshape send it to row f, column (ho * 28 + wo) * 4 + n of the [64, 3136] matrix of negated sums; that sum runs over the
  576 positions k of |w2[f, k] - xcol[k, (ho * 28 + wo) * 4 + n]| starting from zero; w2[f, k] is the filter array at
  (f, k / 9, k / 3 % 3, k % 3); and xcol[k, l * 4 + n], through a reshape, a transpose and a reshape of the patch array,
  is the patch array at (n, k / 9, k % 9, l / 28, l % 28).  Every step is the position arithmetic of a row-major reshape.
-/
import proofs.«115823_j24472723653052_2_alg».proof.Proof.Gen.ReferenceIdeal.Read
import proofs.«115823_j24472723653052_2_alg».proof.Proof.Spec
import Idealize.ShloMosaic.Lib.ValueIdx
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Read Cert.Adder

/-- The column of the [64, 3136] matrix that holds image n at pixel (ho, wo): the pixel's row-major position, times
    four, plus the image. -/
def colOf (n : Fin 4) (ho wo : Fin 28) : Fin 3136 :=
  ⟨(ho.val * 28 + wo.val) * 4 + n.val, by have := n.isLt; have := ho.isLt; have := wo.isLt; omega⟩

/-- The pixel's row-major position among the 784. -/
def pixOf (ho wo : Fin 28) : Fin 784 := ⟨ho.val * 28 + wo.val, by have := ho.isLt; have := wo.isLt; omega⟩

theorem idx33_ix (n : Fin 4) (f : Fin 64) (ho wo : Fin 28) :
    idx_main_v33 (ix4 n f ho wo) = ix4 f ho wo n :=
  funext fun a => match a with
    | ⟨0, _⟩ => rfl
    | ⟨1, _⟩ => rfl
    | ⟨2, _⟩ => rfl
    | ⟨3, _⟩ => rfl

theorem idx32_ix (n : Fin 4) (f : Fin 64) (ho wo : Fin 28) :
    idx_main_v32 (ix4 f ho wo n) = ix2 f (colOf n ho wo) := by
  have hn := n.isLt; have hf := f.isLt; have hh := ho.isLt; have hw := wo.isLt
  exact funext fun a => match a with
    | ⟨0, _⟩ => Fin.ext (by
        show (((f.val * 28 + ho.val) * 28 + wo.val) * 4 + n.val) / 3136 = f.val; omega)
    | ⟨1, _⟩ => Fin.ext (by
        show (((f.val * 28 + ho.val) * 28 + wo.val) * 4 + n.val) % 3136 = (ho.val * 28 + wo.val) * 4 + n.val; omega)

theorem idx30_ix (f : Fin 64) (l : Fin 3136) (k : Fin 576) : idx_main_v30 (ix2 f l) k = ix3 f k l :=
  funext fun a => match a with
    | ⟨0, _⟩ => rfl
    | ⟨1, _⟩ => rfl
    | ⟨2, _⟩ => rfl

/-- The filter side: entry (f, k, l) of the spread filter matrix is the filter array at position k of filter f. -/
theorem filter_idx (f : Fin 64) (k : Fin 576) (l : Fin 3136) :
    idx_main_v23 (idx_main_v24 (idx_main_v26 (ix3 f k l))) = filterIdx f k := by
  have hf := f.isLt; have hk := k.isLt
  exact funext fun a => match a with
    | ⟨0, _⟩ => Fin.ext (by show (f.val * 576 + k.val) / 576 = f.val; omega)
    | ⟨1, _⟩ => Fin.ext (by show (f.val * 576 + k.val) / 9 % 64 = k.val / 9; omega)
    | ⟨2, _⟩ => Fin.ext (by show (f.val * 576 + k.val) / 3 % 3 = k.val / 3 % 3; omega)
    | ⟨3, _⟩ => Fin.ext (by show (f.val * 576 + k.val) % 3 = k.val % 3; omega)

/-- The patch side: entry (f, k, column of (n, ho, wo)) of the spread patch matrix is the patch array at position k of
    the patch of image n at (ho, wo). -/
theorem patch_idx (n : Fin 4) (f : Fin 64) (ho wo : Fin 28) (k : Fin 576) :
    idx_main_v20 (idx_main_v21 (idx_main_v22 (idx_main_v25 (idx_main_v27 (ix3 f k (colOf n ho wo))))))
      = patchIdx n k ho wo := by
  have hn := n.isLt; have hk := k.isLt; have hh := ho.isLt; have hw := wo.isLt
  have e22 : idx_main_v22 (idx_main_v25 (idx_main_v27 (ix3 f k (colOf n ho wo)))) = ix3 k (pixOf ho wo) n :=
    funext fun a => match a with
      | ⟨0, _⟩ => Fin.ext (by
          show (k.val * 3136 + ((ho.val * 28 + wo.val) * 4 + n.val)) / 3136 = k.val; omega)
      | ⟨1, _⟩ => Fin.ext (by
          show (k.val * 3136 + ((ho.val * 28 + wo.val) * 4 + n.val)) / 4 % 784 = ho.val * 28 + wo.val; omega)
      | ⟨2, _⟩ => Fin.ext (by
          show (k.val * 3136 + ((ho.val * 28 + wo.val) * 4 + n.val)) % 4 = n.val; omega)
  have e21 : idx_main_v21 (ix3 k (pixOf ho wo) n) = ix3 n k (pixOf ho wo) :=
    funext fun a => match a with
      | ⟨0, _⟩ => rfl
      | ⟨1, _⟩ => rfl
      | ⟨2, _⟩ => rfl
  rw [e22, e21]
  exact funext fun a => match a with
    | ⟨0, _⟩ => Fin.ext (by
        show ((n.val * 576 + k.val) * 784 + (ho.val * 28 + wo.val)) / 451584 = n.val; omega)
    | ⟨1, _⟩ => Fin.ext (by
        show ((n.val * 576 + k.val) * 784 + (ho.val * 28 + wo.val)) / 7056 % 64 = k.val / 9; omega)
    | ⟨2, _⟩ => Fin.ext (by
        show ((n.val * 576 + k.val) * 784 + (ho.val * 28 + wo.val)) / 784 % 9 = k.val % 9; omega)
    | ⟨3, _⟩ => Fin.ext (by
        show ((n.val * 576 + k.val) * 784 + (ho.val * 28 + wo.val)) / 28 % 28 = ho.val; omega)
    | ⟨4, _⟩ => Fin.ext (by
        show ((n.val * 576 + k.val) * 784 + (ho.val * 28 + wo.val)) % 28 = wo.val; omega)

/-- The reference's result is the adder layer of its patch array and the filter array. -/
theorem result_eq (x0 : (⟨S4x64x28x28, .f32⟩ : BufTy).Contents (Elt Ideal)) (x1 : (⟨S64x64x3x3, .f32⟩ : BufTy).Contents (Elt Ideal)) :
    val_main_v33 (F := Ideal) x0 x1 = adder (val_main_v19 (F := Ideal) x0) x1 := by
  funext i
  obtain ⟨n, f, ho, wo, rfl⟩ : ∃ (n : Fin 4) (f : Fin 64) (ho wo : Fin 28), i = ix4 n f ho wo :=
    ⟨i 0, i 1, i 2, i 3, eq_ix4 i⟩
  rw [adder_ix4, val_main_v33_apply, idx33_ix, val_main_v32_apply, idx32_ix, val_main_v31_apply, val_main_v30_apply]
  show -(Ideal.ofBits .f32 0x00000000#32 + _) = -(dist _ _)
  rw [Ideal.ofBits_zero_f32, zero_add]
  refine congrArg Neg.neg (Finset.sum_congr rfl fun k _ => ?_)
  rw [idx30_ix, val_main_v29_apply, val_main_v28_apply, val_main_v26_apply, val_main_v24_apply, val_main_v23_apply,
    filter_idx, val_main_v27_apply, val_main_v25_apply, val_main_v22_apply, val_main_v21_apply, val_main_v20_apply,
    patch_idx]
  rfl

end Cert.ReferenceIdeal.RefValue

end
-- ==== Proof.lean ====
/-
  The adder layer (a convolution with the product replaced by minus an absolute difference): for an input x of shape
  [4, 64, 28, 28] and filters W of shape [64, 64, 3, 3], with one ring of zero padding,
      out[n, f, ho, wo] = -∑_{c, kh, kw} |W[f, c, kh, kw] - xpad[n, c, ho + kh, wo + kw]|.
  Both programs first build the same patch array (nine shifted views of the padded input joined along a new axis).
  The kernel program lays the patches out as a [576, 3136] matrix with the column of (n, ho, wo) at n·784 + ho·28 + wo,
  pads it to 3200 columns, and computes the distances tile by tile (five tiles of 640 columns), inside a tile in nine
  blocks of 64 of the 576 positions added onto zero, negating by subtraction from zero; it then drops the padding
  and restores the (n, f, ho, wo) order.  The reference lays the patches out with the column of (n, ho, wo) at
  (ho·28 + wo)·4 + n, sums all 576 positions at once, negates, and restores the order.  On the extended reals
  addition is commutative and associative with neutral 0 and 0 - a = -a for every a, so the two results agree entry by
  entry whatever the inputs; the precondition is not used.  No operation was rewritten by the idealization, so the
  idealized kernel is the kernel's own text.
-/
import proofs.«115823_j24472723653052_2_alg».proof.Defs
import proofs.«115823_j24472723653052_2_alg».proof.Proof.Gen.Kernel
import proofs.«115823_j24472723653052_2_alg».proof.Proof.Gen.KernelIdeal
import proofs.«115823_j24472723653052_2_alg».proof.Proof.Gen.ReferenceIdeal
import proofs.«115823_j24472723653052_2_alg».proof.Proof.Gen.Pre_finite_inputs
import proofs.«115823_j24472723653052_2_alg».proof.Proof.FrameK
import proofs.«115823_j24472723653052_2_alg».proof.Proof.KernelRun
import proofs.«115823_j24472723653052_2_alg».proof.Proof.RefStages

noncomputable section

namespace Cert.Proof

open Idealize.ShloMosaic Idealize.ShloMosaic.TcCoe Idealize.SL.Sem Cert.Adder

/-- The two programs build their patch arrays by the same operations on the same input: one array. -/
theorem patches_eq (x : FVec Ideal Cert.KernelIdeal.S4x64x28x28 .f32) :
    Cert.KernelIdeal.Arr.patches x = Cert.ReferenceIdeal.Read.val_main_v19 (F := Ideal) x := rfl

theorem frame_kernel : Cert.frame_Kernel := fun m ρ _ => Cert.Kernel.Hand.frame m ρ

theorem frame_kernelIdeal : Cert.frame_KernelIdeal := fun m ρ _ => Cert.KernelIdeal.Hand.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the adder layer of the common patch array and the filter array. -/
theorem algebraic : Cert.algebraic_KernelIdeal_ReferenceIdeal := by
  intro m ρ m' ρ' _ hagree
  refine ⟨fun c => adder (Cert.KernelIdeal.Arr.patches (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, (hagree c).1, (hagree c).2]
  show _ = adder (Cert.KernelIdeal.Arr.patches _) _
  rw [patches_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
